-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x9 : Shape := ⟨2, ![4194304, 9]⟩
abbrev S4194304 : Shape := ⟨1, ![4194304]⟩
abbrev S_ : Shape := ⟨0, ![]⟩

class Facts : Prop where
  bcast_S_S4194304x9 : S_.BroadcastsInDim S4194304x9 (![] : Fin 0 → Fin S4194304x9.rank)
  reducesTo_S4194304x9_S_d0_1 : S4194304x9.ReducesTo [0, 1] S_
  h_S_ : 0 < S_.numel

variable [Facts]

def fn {F : FTy → Type} [FloatOps F] (main_arg0 : FVec F S4194304x9 .f32) (main_arg1 : IVec S4194304 32) : IVec S_ 1 :=
  let main_v0 : FVec F S4194304x9 .f32 := Host.absf main_arg0
  let main_cst : FVec F S_ .f32 := constant S_ .f32 0x7F800000#32
  let main_v1 : FVec F S4194304x9 .f32 := broadcastInDim S4194304x9 ![] bcast_S_S4194304x9 main_cst
  let main_v2 : IVec S4194304x9 1 := cmpf .olt main_v0 main_v1
  let main_c : IVec S_ 1 := constantI S_ 1 1#1
  let main_v3 : IVec S_ 1 := (fun x v => Host.reduce IntOp.andi x v reducesTo_S4194304x9_S_d0_1 h_S_) main_v2 main_c
  main_v3
-- ==== Kernel.lean ====
abbrev S4194304x9 : Shape := ⟨2, ![4194304, 9]⟩
abbrev S4194304 : Shape := ⟨1, ![4194304]⟩
abbrev S_ : Shape := ⟨0, ![]⟩
abbrev S4194304x1 : Shape := ⟨2, ![4194304, 1]⟩
abbrev S1x1 : Shape := ⟨2, ![1, 1]⟩
abbrev S8192x9 : Shape := ⟨2, ![8192, 9]⟩
abbrev S8192x1 : Shape := ⟨2, ![8192, 1]⟩
abbrev S8192 : Shape := ⟨1, ![8192]⟩
abbrev S1 : Shape := ⟨1, ![1]⟩

abbrev nBuf : Space → Nat
  | .hbm => 8
  | .vmem => 6
  | .smem => 0
  | _ => 0

abbrev bufTy : (tb : Table) → Fin (tcTables nBuf tb) → BufTy
  | .hbm, ⟨0, _⟩ => ⟨S4194304x9, .f32⟩
  | .hbm, ⟨1, _⟩ => ⟨S4194304, .i32⟩
  | .hbm, ⟨2, _⟩ => ⟨S_, .i32⟩
  | .hbm, ⟨3, _⟩ => ⟨S4194304, .i32⟩
  | .hbm, ⟨4, _⟩ => ⟨S4194304, .i32⟩
  | .hbm, ⟨5, _⟩ => ⟨S4194304x1, .i32⟩
  | .hbm, ⟨6, _⟩ => ⟨S1x1, .f32⟩
  | .hbm, ⟨7, _⟩ => ⟨S_, .f32⟩
  | .local _ .vmem, ⟨0, _⟩ => ⟨S8192x9, .f32⟩
  | .local _ .vmem, ⟨1, _⟩ => ⟨S8192x9, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | .local _ .vmem, ⟨5, _⟩ => ⟨S1x1, .f32⟩
  | _, _ => ⟨S4194304x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v36 : BitVec 1 := Scalar.cmpi .eq arg0 c511_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S4194304 : S_.BroadcastsInDim S4194304 (![] : Fin 0 → Fin S4194304.rank)
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x9_S8192x9_0_0 : ∀ a, (![0, 0] : Fin 2 → Nat) a + S8192x9.size a ≤ S8192x9.size a
  h_S8192x9 : 0 < S8192x9.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x9_d1_w32 : S8192x9.Iotas .tc 32 [1]
  broadcasts_S8192x1_S8192x9 : S8192x1.Broadcasts S8192x9
  natLt_1_32 : 1 < 32
  reduces_S8192x9_S8192 : S8192x9.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S4194304x9.size a
  hwx0_0 : ∀ i : grid0.Coords, EltTy.bits .f32 = 32 ∨ (Rect.block (s := S4194304x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x9 : Shape := ⟨2, ![4194304, 9]⟩
abbrev S4194304 : Shape := ⟨1, ![4194304]⟩
abbrev S_ : Shape := ⟨0, ![]⟩
abbrev S9 : Shape := ⟨1, ![9]⟩
abbrev S1x9 : Shape := ⟨2, ![1, 9]⟩
abbrev S4194304x1 : Shape := ⟨2, ![4194304, 1]⟩

abbrev nBuf : Space → Nat
  | .hbm => 42
  | .vmem => 0
  | .smem => 0
  | _ => 0

abbrev bufTy : (tb : Table) → Fin (tcTables nBuf tb) → BufTy
  | .hbm, ⟨0, _⟩ => ⟨S4194304x9, .f32⟩
  | .hbm, ⟨1, _⟩ => ⟨S4194304, .i32⟩
  | .hbm, ⟨2, _⟩ => ⟨S_, .i32⟩
  | .hbm, ⟨3, _⟩ => ⟨S4194304, .i32⟩
  | .hbm, ⟨4, _⟩ => ⟨S4194304, .i32⟩
  | .hbm, ⟨5, _⟩ => ⟨S9, .i32⟩
  | .hbm, ⟨6, _⟩ => ⟨S1x9, .i32⟩
  | .hbm, ⟨7, _⟩ => ⟨S4194304x1, .i32⟩
  | .hbm, ⟨8, _⟩ => ⟨S4194304x9, .i32⟩
  | .hbm, ⟨9, _⟩ => ⟨S4194304x9, .i32⟩
  | .hbm, ⟨10, _⟩ => ⟨S4194304x9, .i1⟩
  | .hbm, ⟨11, _⟩ => ⟨S4194304x9, .f32⟩
  | .hbm, ⟨12, _⟩ => ⟨S4194304x9, .f32⟩
  | .hbm, ⟨13, _⟩ => ⟨S4194304x9, .f32⟩
  | .hbm, ⟨14, _⟩ => ⟨S_, .f32⟩
  | .hbm, ⟨15, _⟩ => ⟨S4194304x9, .f32⟩
  | .hbm, ⟨16, _⟩ => ⟨S4194304x9, .f32⟩
  | .hbm, ⟨17, _⟩ => ⟨S_, .f32⟩
  | .hbm, ⟨18, _⟩ => ⟨S4194304x9, .f32⟩
  | .hbm, ⟨19, _⟩ => ⟨S4194304x9, .f32⟩
  | .hbm, ⟨20, _⟩ => ⟨S_, .f32⟩
  | .hbm, ⟨21, _⟩ => ⟨S4194304x9, .f32⟩
  | .hbm, ⟨22, _⟩ => ⟨S4194304x9, .f32⟩
  | .hbm, ⟨23, _⟩ => ⟨S4194304x9, .f32⟩
  | .hbm, ⟨24, _⟩ => ⟨S4194304x9, .f32⟩
  | .hbm, ⟨25, _⟩ => ⟨S_, .f32⟩
  | .hbm, ⟨26, _⟩ => ⟨S4194304x9, .f32⟩
  | .hbm, ⟨27, _⟩ => ⟨S4194304x9, .f32⟩
  | .hbm, ⟨28, _⟩ => ⟨S_, .f32⟩
  | .hbm, ⟨29, _⟩ => ⟨S4194304x9, .f32⟩
  | .hbm, ⟨30, _⟩ => ⟨S4194304x9, .f32⟩
  | .hbm, ⟨31, _⟩ => ⟨S_, .f32⟩
  | .hbm, ⟨32, _⟩ => ⟨S4194304x9, .f32⟩
  | .hbm, ⟨33, _⟩ => ⟨S4194304x9, .f32⟩
  | .hbm, ⟨34, _⟩ => ⟨S4194304x9, .f32⟩
  | .hbm, ⟨35, _⟩ => ⟨S4194304x9, .f32⟩
  | .hbm, ⟨36, _⟩ => ⟨S4194304x9, .f32⟩
  | .hbm, ⟨37, _⟩ => ⟨S4194304x9, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4194304x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S9_S1x9_1 : S9.BroadcastsInDim S1x9 (![1] : Fin 1 → Fin S1x9.rank)
  bcast_S4194304_S4194304x1_0 : S4194304.BroadcastsInDim S4194304x1 (![0] : Fin 1 → Fin S4194304x1.rank)
  bcast_S1x9_S4194304x9_0_1 : S1x9.BroadcastsInDim S4194304x9 (![0, 1] : Fin 2 → Fin S4194304x9.rank)
  bcast_S4194304x1_S4194304x9_0_1 : S4194304x1.BroadcastsInDim S4194304x9 (![0, 1] : Fin 2 → Fin S4194304x9.rank)
  bcast_S_S4194304x9 : S_.BroadcastsInDim S4194304x9 (![] : Fin 0 → Fin S4194304x9.rank)
  reducesTo_S4194304x9_S_d0_1 : S4194304x9.ReducesTo [0, 1] S_
  h_S_ : 0 < S_.numel

variable [Facts₀]

class Facts : Prop extends Facts₀ where

variable [Facts]
-- ==== Proof.Pieces.lean ====
/-
  What each case of the body leaves behind, as values.

  The body has three cases over the grid: the first point (the accumulator is reset to zero, then the tile total is
  added), the middle points (the tile total is added to what the point before left), and the last point (the same, and
  then the accumulator divided by the number of cells is stored to the output block). Each store covers its whole
  one-entry buffer at offset zero, and each load reads a whole buffer, so what a buffer ends holding is the payload of
  the last store into it, with every load replaced by the contents it read:

      first point   accumulator = tile-total payload of (block, ranks, zero)
      middle point  accumulator = tile-total payload of (block, ranks, carried)
      last point    accumulator = the same;  output = the division payload of that accumulator.

  These hold for any float interpretation: nothing here looks inside the payloads.
-/
import proofs.«111805_j17626545783550_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every store and load of the body sits at offset zero of its buffer. -/
theorem hz : (![0, 0] : Fin 2 → Nat) = fun _ => 0 := funext fun a => by fin_cases a <;> rfl

/-- A middle point leaves in the accumulator the carried value plus the tile total (as the payload states it). -/
theorem scratch_B (c : Dev nD) (i : grid0.Coords) (arg1 : Memref sig .tc .vmem S8192x9 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S8192x9 .f32) (x1 : Vec F S8192x1 .i32) (xs0 : Vec F S1x1 .f32) :
    sout0_B_0 c i arg1 harg1 arg2 harg2 arg3 harg3 arg4 harg4 hc0 hc1 x0 x1 xs0 = k0_pay3 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero hz]
  simp only [View.readAt_eq_ld, harg1.read_unread, harg2.read_unread, harg4.read_unread,
    View.ld_unit_zero (S := S8192x9) hz, View.ld_unit_zero (S := S8192x1) hz, View.ld_unit_zero (S := S1x1) hz]

/-- The first point resets the accumulator to the zero payload, reads that back, and leaves the tile total added to
    it: the second store overwrites the first, and its load sees the first store's payload. -/
theorem scratch_A (c : Dev nD) (i : grid0.Coords) (arg1 : Memref sig .tc .vmem S8192x9 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S8192x9 .f32) (x1 : Vec F S8192x1 .i32) :
    sout0_A_0 c i arg1 harg1 arg2 harg2 arg3 harg3 arg4 harg4 hc0 hc1 x0 x1 = k0_pay3 x0 x1 (k0_pay2 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread,
    View.ld_unit_zero (S := S8192x9) hz, View.ld_unit_zero (S := S8192x1) hz, View.ld_unit_zero (S := S1x1) hz]

/-- The last point leaves in the accumulator what a middle point would. -/
theorem scratch_C (c : Dev nD) (i : grid0.Coords) (arg1 : Memref sig .tc .vmem S8192x9 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x9 .f32) (x1 : Vec F S8192x1 .i32) (xs0 : Vec F S1x1 .f32) :
    sout0_C_0 c i arg1 harg1 arg2 harg2 arg3 harg3 arg4 harg4 hc0 hc1 x0 x1 xs0 = k0_pay3 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S8192x9) hz, View.ld_unit_zero (S := S8192x1) hz, View.ld_unit_zero (S := S1x1) hz]

/-- And stores to the output block the division payload of that accumulator: its load of the accumulator sees the
    store made just before. -/
theorem out_C (c : Dev nD) (i : grid0.Coords) (arg1 : Memref sig .tc .vmem S8192x9 .f32) (harg1 : arg1.IsWhole) (arg2 : Memref sig .tc .vmem S8192x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S8192x9 .f32) (x1 : Vec F S8192x1 .i32) (xs0 : Vec F S1x1 .f32) :
    out0_C_2 c i arg1 harg1 arg2 harg2 arg3 harg3 arg4 harg4 hc0 hc1 x0 x1 xs0 = k0_pay1 (k0_pay3 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz, View.readCov_unit_zero (S := S1x1) _ hz]
  simp only [View.readAt_eq_ld, harg1.read_unread, harg2.read_unread, harg4.read_unread,
    View.ld_unit_zero (S := S8192x9) hz, View.ld_unit_zero (S := S8192x1) hz, View.ld_unit_zero (S := S1x1) hz]

end Cert.KernelIdeal.Pieces

end
-- ==== Proof.Cell.lean ====
/-
  One cell of the ordinal binary-cross-entropy loss, on the extended reals.

  For a logit `x` and the indicator `b` of "class k lies strictly below the target rank", the cell is

      -( b · log(σ(x) + ε) + (1 - b) · log(1 - σ(x) + ε) ),      σ(x) = 1 / (1 + e^(-x)),

  where ε is the single-precision word nearest 10⁻⁷, read as the exact dyadic rational that word denotes (the same
  word on both sides, so its value is never computed). The mean of these cells over all rows and the nine class
  thresholds is the loss. Two spellings of the cell occur and both are shown to be `cell`:

    * the accumulating one writes σ as the single operation "logistic", the indicator as a sign-extended integer
      made a float, and the leading minus as `0 - y`;
    * the plain one writes σ as `1 / (1 + exp (-x))`, the indicator as the unsigned value of the one-bit word, and
      the minus as a negation.

  They agree on EVERY extended real: `logistic` is by definition `1 / (1 + exp (-x))`, a one-bit word read signed
  after zero-extension or unsigned is 0 or 1 either way, and `0 - y = -y` holds on the extended reals without any
  finiteness (it is the definition of subtraction there). The only number evaluated is the word for `1.0`.
-/
import Idealize.ShloMosaic.PureOps.Ideal.Laws

noncomputable section

namespace Cert.Corn

open Idealize.ShloMosaic

/-- The smoothing constant inside both logarithms: the value of the f32 word nearest 10⁻⁷. -/
abbrev eps : EReal := Ideal.ofBits .f32 0x33D6BF95#32

/-- A one-bit word as the extended real 0 or 1. -/
def ind (b : BitVec 1) : EReal := ((b.toNat : ℝ) : EReal)

/-- The loss of one logit against one threshold indicator. -/
def cell (x : EReal) (b : BitVec 1) : EReal :=
  -(ind b * Ideal.log (Ideal.logistic x + eps) + (1 - ind b) * Ideal.log (1 - Ideal.logistic x + eps))

/-- The f32 word `0x3F800000` denotes the number one: mantissa 2²³ at exponent 2⁻²³. -/
theorem ofBits_one : Ideal.ofBits .f32 0x3F800000#32 = 1 := by
  simp [Ideal.ofBits, Ideal.ieee, -EReal.coe_mul]
  norm_num

/-- Zero-extending a one-bit word to 32 bits and reading it as a signed integer gives its unsigned value (0 or 1:
    the sign bit of the extension is clear). -/
theorem toInt_zeroExtend (b : BitVec 1) : (b.setWidth 32).toInt = (b.toNat : ℤ) := by
  revert b; decide

/-- The unsigned reading of the one-bit word is the indicator, by definition. -/
theorem ind_of_unsigned (b : BitVec 1) : FloatOps.uitofp (F := Ideal) .f32 b = ind b := rfl

/-- So is the signed reading of its zero-extension. -/
theorem ind_of_signed_ext (b : BitVec 1) : FloatOps.sitofp (F := Ideal) .f32 (b.setWidth 32) = ind b := by
  show (((b.setWidth 32).toInt : ℝ) : EReal) = ((b.toNat : ℝ) : EReal)
  rw [toInt_zeroExtend]
  simp

/-- The accumulating spelling: `0 - ( b·log(logistic x + ε) + (1 - b)·log(1 - logistic x + ε) )` with the literal words
    for 0 and 1 and the indicator read signed after extension. -/
theorem cell_of_logistic (x : EReal) (b : BitVec 1) :
    Ideal.ofBits .f32 0x00000000#32
        - (FloatOps.sitofp (F := Ideal) .f32 (b.setWidth 32) * Ideal.log (Ideal.logistic x + eps)
          + (Ideal.ofBits .f32 0x3F800000#32 - FloatOps.sitofp (F := Ideal) .f32 (b.setWidth 32))
              * Ideal.log (Ideal.ofBits .f32 0x3F800000#32 - Ideal.logistic x + eps))
      = cell x b := by
  rw [Ideal.ofBits_zero_f32, ofBits_one, ind_of_signed_ext, zero_sub]
  rfl

/-- The plain spelling: `-( b·log(1/(1 + e^(-x)) + ε) + (1 - b)·log(1 - 1/(1 + e^(-x)) + ε) )` with the literal word
    for 1 and the indicator read unsigned. -/
theorem cell_of_quotient (x : EReal) (b : BitVec 1) :
    -(FloatOps.uitofp (F := Ideal) .f32 b
          * Ideal.log (Ideal.div (Ideal.ofBits .f32 0x3F800000#32) (Ideal.ofBits .f32 0x3F800000#32 + Ideal.exp (-x)) + eps)
        + (Ideal.ofBits .f32 0x3F800000#32 - FloatOps.uitofp (F := Ideal) .f32 b)
            * Ideal.log (Ideal.ofBits .f32 0x3F800000#32
                - Ideal.div (Ideal.ofBits .f32 0x3F800000#32) (Ideal.ofBits .f32 0x3F800000#32 + Ideal.exp (-x)) + eps))
      = cell x b := by
  rw [ofBits_one]
  rfl

end Cert.Corn

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibColumn.lean ====
/- A sublane sum read at its one entry: the float add-reduction of an [a, 1] column over its first axis, from the zero
   accumulator, is at the extended reals the plain sum of the column's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibColumn
open Idealize.ShloMosaic Idealize.ShloMosaic.ValueIdx

/-- A sum down an [a, 1] column (a float `multi_reduction <add>` over axis 0 from the zero accumulator) read at its
    one entry, at the extended reals: the sum over the rows `r` of the entries `(r, 0)`. -/
theorem columnSum_apply {a : ℕ} (src : FVec Ideal ⟨2, ![a, 1]⟩ .f32) (h : Shape.Reduces ⟨2, ![a, 1]⟩ [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun r _ => congrArg src ?_
  funext d
  match d with
  | ⟨0, _⟩ => rfl
  | ⟨1, _⟩ => exact Fin.ext (by have := u.isLt; show (u : ℕ) = 0; omega)

end Cert.LibColumn
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.TileSum.lean ====
/-
  What one grid point adds to the carried accumulator.

  At a point the body holds a block `x` of 8192 rows by 9 thresholds of logits and the column `t` of the 8192 rows'
  target ranks. It forms, for row `r` and threshold `k`, the indicator "k < t r" (an iota along the lanes compared with
  the rank column spread over the lanes), the loss cell of `x r k` against it, adds the nine cells of each row (a lane
  sum), then the 8192 row sums (a sublane sum), and adds that tile total to the one-entry accumulator it carries. Read at
  the accumulator's one index this is

      acc + ∑ r < 8192, ∑ k < 9, cell (x r k) [k < t r].

  The other two stored values are the zero the first point resets the accumulator to, and the accumulator divided by
  the number of cells, which the last point writes out.
-/
import proofs.«111805_j17626545783550_2_alg».proof.Proof.Gen.KernelIdeal.Skeleton
import proofs.«111805_j17626545783550_2_alg».proof.Proof.Cell
import proofs.«111805_j17626545783550_2_alg».proof.Proof.LibLane
import proofs.«111805_j17626545783550_2_alg».proof.Proof.LibColumn
import proofs.«111805_j17626545783550_2_alg».proof.Proof.LibIndexRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.Corn

/-- The indicator "threshold k lies below the rank of row r" as the body computes it: a lane iota compared (signed)
    with the rank column spread over the nine lanes. -/
theorem below_apply (x1 : Vec Ideal S8192x1 .i32) (r : Fin 8192) (k : Fin 9) :
    cmpi .slt (iota .tc S8192x9 32 [1] iota_S8192x9_d1_w32)
        (broadcastTo S8192x9 (shapeCast S8192x1 x1 shapeCasts_S8192x1_S8192x1) broadcasts_S8192x1_S8192x9) (ix2 r k)
      = IntOp.cmpi .slt (BitVec.ofNat 32 k.val) (x1 (ix2 r (0 : Fin 1))) := by
  show IntOp.cmpi .slt (iota .tc S8192x9 32 [1] iota_S8192x9_d1_w32 (ix2 r k))
      (broadcastTo S8192x9 (shapeCast S8192x1 x1 shapeCasts_S8192x1_S8192x1) broadcasts_S8192x1_S8192x9 (ix2 r k)) = _
  rw [iota_single_apply, RowRead.broadcastTo_a1_ab_apply, shapeCast_self]

/-- The total of the loss cells of one block: rows outermost, the nine thresholds innermost. -/
def tileSum (x0 : Vec Ideal S8192x9 .f32) (x1 : Vec Ideal S8192x1 .i32) : EReal :=
  ∑ r : Fin 8192, ∑ k : Fin 9, cell (x0 (ix2 r k)) (IntOp.cmpi .slt (BitVec.ofNat 32 k.val) (x1 (ix2 r (0 : Fin 1))))

/-- The accumulator's new contents: what it carried plus the block's total. -/
theorem pay3_apply (x0 : Vec Ideal S8192x9 .f32) (x1 : Vec Ideal S8192x1 .i32) (acc : Vec Ideal S1x1 .f32) (u v : Fin 1) :
    k0_pay3 (F := Ideal) x0 x1 acc (ix2 u v) = acc (ix2 u v) + tileSum x0 x1 := by
  unfold k0_pay3
  rw [shapeCast_self]
  show acc (ix2 u v) + shapeCast S1x1 _ shapeCasts_S1_S1x1 (ix2 u v) = _
  rw [RowRead.shapeCast_a_a1_apply, LibColumn.columnSum_apply]
  unfold tileSum
  refine congrArg (acc (ix2 u v) + ·) (Finset.sum_congr rfl fun r _ => ?_)
  rw [RowRead.shapeCast_a_a1_apply, LibLane.laneSum_apply]
  refine Finset.sum_congr rfl fun k _ => ?_
  refine Eq.trans ?_ (congrArg (cell (x0 (ix2 r k))) (below_apply x1 r k))
  exact cell_of_logistic _ _

/-- The reset value: zero. -/
theorem pay2_apply (j : S1x1.Idx) : k0_pay2 (F := Ideal) j = 0 := by
  unfold k0_pay2
  rw [shapeCast_self]
  exact Ideal.ofBits_zero_f32

/-- The value written out: the accumulator divided by the word for the number of cells. -/
theorem pay1_apply (a : Vec Ideal S1x1 .f32) (j : S1x1.Idx) :
    k0_pay1 (F := Ideal) a j = Ideal.div (a j) (Ideal.ofBits .f32 0x4C100000#32) := rfl

end Cert.KernelIdeal.Tile

end
-- ==== Proof.Blocks.lean ====
/-
  What the two input windows hold at a grid point, in terms of the program's arguments.

  Before the grid runs, the host subtracts one from every target and views the result as a column: entry `(i, 0)` of
  that column is `targets i - 1`, the rank of row `i`. The logits are passed as they are. Window 0 cuts the logits into
  512 blocks of 8192 rows (all 9 columns), window 1 cuts the rank column the same way, and both are at block `t` at
  point `t`; so at point `t`, row `r` of either block is row `8192·t + r` of its array.
-/
import proofs.«111805_j17626545783550_2_alg».proof.Proof.Gen.KernelIdeal.Frame
import proofs.«111805_j17626545783550_2_alg».proof.Proof.LibIndexRead
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block index of each window at each of the 512 points: the two inputs advance with the point along the rows
    and stay at column block 0; the output never moves. -/
theorem index_facts : ∀ t : Fin cfg0.N, win0_0.index t (0 : Fin 2) = t.val ∧ win0_0.index t (1 : Fin 2) = 0
      ∧ win0_1.index t (0 : Fin 2) = t.val ∧ win0_1.index t (1 : Fin 2) = 0
      ∧ win0_2.index t (0 : Fin 2) = 0 ∧ win0_2.index t (1 : Fin 2) = 0 :=
  (by decide +kernel : ∀ t : Fin grid0.N, _)

/-- The rank column as the grid finds it: the targets minus one, viewed as a column. -/
theorem ranks_eq (c : Dev nD) :
    (V m c main_v2 : S4194304x1.Idx → BitVec 32)
      = shapeCast S4194304x1 (subi (m ((c : Thread nD τ).loc main_arg1)) (broadcastInDim S4194304 ![] bcast_S_S4194304 (constantI S_ 32 1#32))) shapeCasts_S4194304_S4194304x1 := by
  show StableHlo.after hostOps0 (fun b => m (c, b)) (Proc.devRef .tc main_v2) = _
  after_results
  rfl

/-- Its entry for row `i` is `targets i - 1`. -/
theorem rank_apply (c : Dev nD) (i : Fin 4194304) (u : Fin 1) :
    (V m c main_v2 : S4194304x1.Idx → BitVec 32) (ix2 i u) = IntOp.subi (m ((c : Thread nD τ).loc main_arg1) (ix1 i)) 1#32 := by
  rw [ranks_eq, RowRead.shapeCast_a_a1_apply]
  show IntOp.subi (m ((c : Thread nD τ).loc main_arg1) (ix1 i)) (broadcastInDim S4194304 ![] bcast_S_S4194304 (constantI S_ 32 1#32) (ix1 i)) = _
  rw [RowRead.broadcastInDim_scalar_apply]
  rfl

/-- Row `r`, column `k` of the logits block at point `t` is the logit of row `8192·t + r`, column `k`. -/
theorem logits_block (c : Dev nD) (t : Fin cfg0.N) (r : Fin 8192) (k : Fin 9) (h : 8192 * t.val + r.val < 4194304) :
    (iblk m c 0 t : Vec Ideal S8192x9 .f32) (ix2 r k) = m ((c : Thread nD τ).loc main_arg0) (ix2 ⟨8192 * t.val + r.val, h⟩ k) := by
  obtain ⟨h00, h01, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * r.val = 8192 * t.val + r.val; rw [h00]; omega
  | ⟨1, _⟩ => show win0_0.index t (1 : Fin 2) * 9 + 1 * k.val = k.val; rw [h01]; omega

/-- Row `r` of the rank block at point `t` is the rank of row `8192·t + r`: its target minus one. -/
theorem ranks_block (c : Dev nD) (t : Fin cfg0.N) (r : Fin 8192) (u : Fin 1) (h : 8192 * t.val + r.val < 4194304) :
    (iblk m c 1 t : Vec Ideal S8192x1 .i32) (ix2 r u)
      = IntOp.subi (m ((c : Thread nD τ).loc main_arg1) (ix1 ⟨8192 * t.val + r.val, h⟩)) 1#32 := by
  obtain ⟨-, -, h10, h11, -⟩ := index_facts t
  unfold iblk
  rw [View.read_apply]
  show (V m c main_v2 : S4194304x1.Idx → BitVec 32) _ = _
  refine Eq.trans (congrArg _ (?_ : _ = ix2 ⟨8192 * t.val + r.val, h⟩ (0 : Fin 1))) (rank_apply m c _ _)
  refine funext fun a => Fin.ext ?_
  match a with
  | ⟨0, _⟩ => show win0_1.index t (0 : Fin 2) * 8192 + 1 * r.val = 8192 * t.val + r.val; rw [h10]; omega
  | ⟨1, _⟩ => show win0_1.index t (1 : Fin 2) * 1 + 1 * u.val = 0; rw [h11]; omega

end Cert.KernelIdeal.Blocks

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.Mean.lean ====
/-
  The mean loss as one number, and the same number cut into tiles of rows.

  For logits `X` (4194304 rows by 9 thresholds) and integer targets `T` (one per row, 1-based), the rank of row `i`
  is `T i - 1`, the indicator of threshold `k` is the signed comparison `k < T i - 1`, and the total loss is the sum
  of `cell (X i k) [k < T i - 1]` over all `(i, k)`; the mean divides by the number of cells (the word `0x4C100000`,
  37748736 = 4194304 · 9, kept as a word since both sides divide by the same one).

  The sum over all index pairs is the sum over rows of the nine cells of a row (`rowLoss`), and 4194304 = 8192 · 512
  consecutive row losses added tile by tile, 512 tiles of 8192 rows, give the same total: only commutativity and
  associativity of addition on the extended reals are used, so nothing needs to be finite.
-/
import proofs.«111805_j17626545783550_2_alg».proof.Proof.Cell
import proofs.«111805_j17626545783550_2_alg».proof.Proof.LibSumBlocks
import Idealize.ShloMosaic.Lib.ValueIdx

noncomputable section

namespace Cert.Corn

open Idealize.ShloMosaic Idealize.ShloMosaic.ValueIdx

/-- The nine cells of row `i` (zero for a row number past the array, which never occurs below). -/
def rowLoss (X : (⟨2, ![4194304, 9]⟩ : Shape).Idx → EReal) (T : (⟨1, ![4194304]⟩ : Shape).Idx → BitVec 32) (i : ℕ) : EReal :=
  if h : i < 4194304 then
    ∑ k : Fin 9, cell (X (ix2 ⟨i, h⟩ k)) (IntOp.cmpi .slt (BitVec.ofNat 32 k.val) (IntOp.subi (T (ix1 ⟨i, h⟩)) 1#32))
  else 0

/-- The total loss: every cell, indexed by the pair (row, threshold). -/
def total (X : (⟨2, ![4194304, 9]⟩ : Shape).Idx → EReal) (T : (⟨1, ![4194304]⟩ : Shape).Idx → BitVec 32) : EReal :=
  ∑ j : (⟨2, ![4194304, 9]⟩ : Shape).Idx,
    cell (X j) (IntOp.cmpi .slt (BitVec.ofNat 32 (j 1).val) (IntOp.subi (T (ix1 (j 0))) 1#32))

/-- The mean loss: the total over the cell count. -/
def mean (X : (⟨2, ![4194304, 9]⟩ : Shape).Idx → EReal) (T : (⟨1, ![4194304]⟩ : Shape).Idx → BitVec 32) : EReal :=
  Ideal.div (total X T) (Ideal.ofBits .f32 0x4C100000#32)

/-- The total is the sum of the row losses. -/
theorem total_eq_rows (X : (⟨2, ![4194304, 9]⟩ : Shape).Idx → EReal) (T : (⟨1, ![4194304]⟩ : Shape).Idx → BitVec 32) :
    total X T = ∑ i ∈ Finset.range 4194304, rowLoss X T i := by
  unfold total
  rw [sum_idx2, ← Fin.sum_univ_eq_sum_range (fun i => rowLoss X T i) 4194304]
  refine Finset.sum_congr rfl fun a _ => ?_
  unfold rowLoss
  rw [dif_pos a.isLt]

/-- The sum of the first `n` tiles of 8192 consecutive row losses. -/
def tiles (X : (⟨2, ![4194304, 9]⟩ : Shape).Idx → EReal) (T : (⟨1, ![4194304]⟩ : Shape).Idx → BitVec 32) (n : ℕ) : EReal :=
  ∑ s ∈ Finset.range n, ∑ r : Fin 8192, rowLoss X T (8192 * s + r.val)

theorem tiles_zero (X : (⟨2, ![4194304, 9]⟩ : Shape).Idx → EReal) (T : (⟨1, ![4194304]⟩ : Shape).Idx → BitVec 32) :
    tiles X T 0 = 0 := Finset.sum_range_zero _

theorem tiles_succ (X : (⟨2, ![4194304, 9]⟩ : Shape).Idx → EReal) (T : (⟨1, ![4194304]⟩ : Shape).Idx → BitVec 32) (n : ℕ) :
    tiles X T (n + 1) = tiles X T n + ∑ r : Fin 8192, rowLoss X T (8192 * n + r.val) := Finset.sum_range_succ _ n

/-- All 512 tiles together are the total. -/
theorem tiles_all (X : (⟨2, ![4194304, 9]⟩ : Shape).Idx → EReal) (T : (⟨1, ![4194304]⟩ : Shape).Idx → BitVec 32) :
    tiles X T 512 = total X T := by
  unfold tiles
  rw [total_eq_rows, Cert.LibSumBlocks.sum_blocks_fin (rowLoss X T) 8192 512,
    Fin.sum_univ_eq_sum_range (fun k => rowLoss X T k) (8192 * 512)]

end Cert.Corn

end
-- ==== Proof.Accumulate.lean ====
/-
  The accumulator across the 512 grid points, and the value written out at the last one.

  Write `X` for the logits and `T` for the targets as the program received them. At point `t` the two input blocks
  are rows `8192·t … 8192·t + 8191` of `X` and of the rank column `T - 1`, so the block total the body adds is the sum
  of the row losses of those 8192 rows. The first point starts from zero, every point adds its block total to what the
  point before left; by induction on the point, after point `n` the accumulator holds the sum of the first `n + 1`
  tiles of row losses. After the last point, `n = 511`, that is all 512 tiles, which is the total loss; the last point
  writes the accumulator divided by the cell count: the mean loss.

  Zero plus a number is that number, and a running sum extended by one term is the next running sum: no other law of
  the extended reals is used, so no input needs to be finite.
-/
import proofs.«111805_j17626545783550_2_alg».proof.Proof.Gen.KernelIdeal.Frame
import proofs.«111805_j17626545783550_2_alg».proof.Proof.Pieces
import proofs.«111805_j17626545783550_2_alg».proof.Proof.TileSum
import proofs.«111805_j17626545783550_2_alg».proof.Proof.Blocks
import proofs.«111805_j17626545783550_2_alg».proof.Proof.Mean

noncomputable section

namespace Cert.KernelIdeal.Acc

open Cert.KernelIdeal Cert.KernelIdeal.Gen Idealize.ShloMosaic Idealize.ShloMosaic.TcCoe Idealize.SL.Sem
open Idealize.ShloMosaic.ValueIdx Cert.Corn

variable (m : (ℓ : Loc nD τ sig) → Buf (Elt Ideal) ℓ)

/-- The logits as the program received them. -/
abbrev X (c : Dev nD) : (⟨2, ![4194304, 9]⟩ : Shape).Idx → EReal := m ((c : Thread nD τ).loc main_arg0)
/-- The targets as the program received them. -/
abbrev T (c : Dev nD) : (⟨1, ![4194304]⟩ : Shape).Idx → BitVec 32 := m ((c : Thread nD τ).loc main_arg1)

/-- The block total at point `t` is the sum of the row losses of rows `8192·t + r`, `r < 8192`. -/
theorem tile_eq (c : Dev nD) (t : Fin cfg0.N) :
    Tile.tileSum (iblk m c 0 t : Vec Ideal S8192x9 .f32) (iblk m c 1 t : Vec Ideal S8192x1 .i32)
      = ∑ r : Fin 8192, rowLoss (X m c) (T m c) (8192 * t.val + r.val) := by
  have hN : t.val < 512 := lt_of_lt_of_eq t.isLt (show cfg0.N = 512 from N_0)
  unfold Tile.tileSum
  refine Finset.sum_congr rfl fun r _ => ?_
  have h : 8192 * t.val + r.val < 4194304 := by have := r.isLt; omega
  unfold rowLoss
  rw [dif_pos h]
  refine Finset.sum_congr rfl fun k _ => ?_
  exact congrArg₂ cell (Blocks.logits_block m c t r k h)
    (congrArg (IntOp.cmpi .slt (BitVec.ofNat 32 k.val)) (Blocks.ranks_block m c t r 0 h))

/-- At the first point the accumulator ends at the block total added to the reset value. -/
theorem scratch_first (c : Dev nD) (t : Fin cfg0.N) (h0 : t.val % 512 = 0) (h1 : ¬t.val % 512 = 511) :
    (outsAt0 m c t.val t.isLt).2 = k0_pay3 (F := Ideal) (iblk m c 0 t) (iblk m c 1 t) (k0_pay2 (F := Ideal)) := by
  rw [outsAt0_A m c t h0 h1]
  dsimp only
  exact Pieces.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At a middle point it ends at the block total added to what the point before left. -/
theorem scratch_middle (c : Dev nD) (t : Fin cfg0.N) (h0 : ¬t.val % 512 = 0) (h1 : ¬t.val % 512 = 511) :
    (outsAt0 m c t.val t.isLt).2 = k0_pay3 (F := Ideal) (iblk m c 0 t) (iblk m c 1 t) (outsAt0 m c (t.val - 1) (Nat.lt_of_le_of_lt (Nat.sub_le _ _) t.isLt)).2 := by
  rw [outsAt0_B m c t h0 h1]
  dsimp only
  exact Pieces.scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At the last point likewise, -/
theorem scratch_last (c : Dev nD) (t : Fin cfg0.N) (h0 : ¬t.val % 512 = 0) (h1 : t.val % 512 = 511) :
    (outsAt0 m c t.val t.isLt).2 = k0_pay3 (F := Ideal) (iblk m c 0 t) (iblk m c 1 t) (outsAt0 m c (t.val - 1) (Nat.lt_of_le_of_lt (Nat.sub_le _ _) t.isLt)).2 := by
  rw [outsAt0_C m c t h0 h1]
  dsimp only
  exact Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- and the output block is that accumulator divided by the cell count. -/
theorem out_at_last (c : Dev nD) (t : Fin cfg0.N) (h0 : ¬t.val % 512 = 0) (h1 : t.val % 512 = 511) :
    (outsAt0 m c t.val t.isLt).1
      = k0_pay1 (F := Ideal) (k0_pay3 (F := Ideal) (iblk m c 0 t) (iblk m c 1 t) (outsAt0 m c (t.val - 1) (Nat.lt_of_le_of_lt (Nat.sub_le _ _) t.isLt)).2) := by
  rw [outsAt0_C m c t h0 h1]
  dsimp only
  exact Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- After point `n` the accumulator holds the first `n + 1` tiles. -/
theorem acc_eq (c : Dev nD) : ∀ (n : ℕ) (hn : n < cfg0.N),
    (outsAt0 m c n hn).2 (ix2 (0 : Fin 1) (0 : Fin 1)) = tiles (X m c) (T m c) (n + 1) := by
  intro n
  induction n with
  | zero =>
    intro hn
    refine (congrFun (scratch_first m c ⟨0, hn⟩ (Nat.zero_mod _) (by show ¬(0 : ℕ) % 512 = 511; decide)) _).trans ?_
    refine (Tile.pay3_apply _ _ _ 0 0).trans ?_
    refine (congrArg₂ (· + ·) (Tile.pay2_apply _) (tile_eq m c ⟨0, hn⟩)).trans ?_
    rw [zero_add, tiles_succ, tiles_zero, zero_add]
  | succ n ih =>
    intro hn
    have hN : cfg0.N = 512 := N_0
    have h0 : ¬ (⟨n + 1, hn⟩ : Fin cfg0.N).val % 512 = 0 := by dsimp only; omega
    have step : (outsAt0 m c (n + 1) hn).2
        = k0_pay3 (F := Ideal) (iblk m c 0 ⟨n + 1, hn⟩) (iblk m c 1 ⟨n + 1, hn⟩) (outsAt0 m c n (Nat.lt_of_succ_lt hn)).2 := by
      by_cases h1 : (⟨n + 1, hn⟩ : Fin cfg0.N).val % 512 = 511
      · exact scratch_last m c ⟨n + 1, hn⟩ h0 h1
      · exact scratch_middle m c ⟨n + 1, hn⟩ h0 h1
    refine (congrFun step _).trans ?_
    refine (Tile.pay3_apply _ _ _ 0 0).trans ?_
    refine (congrArg₂ (· + ·) (ih (Nat.lt_of_succ_lt hn)) (tile_eq m c ⟨n + 1, hn⟩)).trans ?_
    exact (tiles_succ (X m c) (T m c) (n + 1)).symm

/-- The last point writes the mean loss into every entry (there is one) of the output block. -/
theorem out_last (c : Dev nD) (t : Fin cfg0.N) (h1 : t.val % 512 = 511) :
    (outsAt0 m c t.val t.isLt).1 = fun _ => mean (X m c) (T m c) := by
  have hN : cfg0.N = 512 := N_0
  have ht : t.val = 511 := by have := t.isLt; omega
  have h0 : ¬ t.val % 512 = 0 := by omega
  have hp : t.val - 1 < cfg0.N := by omega
  funext j
  obtain ⟨u, v, rfl⟩ : ∃ (u v : Fin 1), j = ix2 u v := ⟨j 0, j 1, eq_ix2 j⟩
  obtain rfl : u = 0 := Subsingleton.elim _ _
  obtain rfl : v = 0 := Subsingleton.elim _ _
  refine (congrFun (out_at_last m c t h0 h1) _).trans ?_
  refine (Tile.pay1_apply _ _).trans ?_
  unfold mean
  refine congrArg (fun s => Ideal.div s (Ideal.ofBits .f32 0x4C100000#32)) ?_
  refine (Tile.pay3_apply _ _ _ 0 0).trans ?_
  have hacc := acc_eq m c (t.val - 1) hp
  rw [show t.val - 1 + 1 = t.val from by omega] at hacc
  refine (congrArg₂ (· + ·) hacc (tile_eq m c t)).trans ?_
  rw [← tiles_succ, show t.val + 1 = 512 from by omega, tiles_all]

end Cert.KernelIdeal.Acc

end
-- ==== Proof.Result.lean ====
/-
  The accumulating program's result is the mean loss.

  The output array has one entry and one block, the same at every point, and it is written back once, after the last
  point, when the block holds the mean loss (the accumulated total over the cell count). That write-back covers the
  whole array, so after the grid the array holds the mean loss; the host then only drops the two unit axes, which
  leaves the same number as a scalar. The two arguments are never written.
-/
import proofs.«111805_j17626545783550_2_alg».proof.Proof.Gen.KernelIdeal.Frame
import proofs.«111805_j17626545783550_2_alg».proof.Proof.Accumulate
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.Corn Cert.KernelIdeal.Acc
open Idealize.ShloMosaic.Pipeline (Dat)

variable (m : (ℓ : Loc nD τ sig) → Buf (Elt Ideal) ℓ) (ρ : Dev nD → PrngReg)

/-- The one-entry output array holding the mean loss. -/
abbrev outArr (c : Dev nD) : Buf (Elt Ideal) ((c : Thread nD τ).loc main_v3) := fun _ => mean (X m c) (T m c)

/-- The last point of the grid. -/
abbrev tLast : Fin cfg0.N := ⟨511, by decide⟩

/-- What is written back (at the last point only) is the output array's one block read off `outArr`: the block sits at
    offset zero and is the whole array. -/
theorem flushed_eq (c : Dev nD) (t : Fin cfg0.N) (hf : (cfg0.win 2).flush t = true) :
    (dats m 0 c).flushed 2 t = ((cfg0.win 2).blk t).view.read (Elt Ideal) (outArr m c) := by
  have h1 : t.val % 512 = 511 := (flush0_2 t).mp hf
  obtain ⟨-, -, -, -, h20, h21⟩ := Blocks.index_facts t
  show (cfg0.win 2).cut (grid0.coords t) ((dats m 0 c).after 2 t) = _
  rw [after0_2, out_last m c t h1]
  have hz' : (fun a => win0_2.index t a * main_v3.ty.shape.size a) = fun _ => 0 := funext fun a => by
    match a with
    | ⟨0, _⟩ => show win0_2.index t (0 : Fin 2) * 1 = 0; rw [h20]
    | ⟨1, _⟩ => show win0_2.index t (1 : Fin 2) * 1 = 0; rw [h21]
  exact (Memref.read_access_unit_zero (Elt Ideal) main_v3 hz' (fun a => by rw [congrFun hz' a]; simp) (outArr m c)).symm

/-- The last point's block covers the one-entry array, so after the grid the array holds the mean loss. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v3).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]
        omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]
        omega⟩

/-- The host line after the grid: the scalar result is the output array with its unit axes dropped. -/
theorem tail_eq (c : Dev nD) (A : Buf (Elt Ideal) ((c : Thread nD τ).loc main_v3)) (hA : (dats m 0 c).arrAt 2 cfg0.N = A) :
    Pipeline.afterTail₀ cfgs (dats m) 0 (V0 m) [hostOps1] c main_v4 = shapeCast S_ A shapeCasts_S1x1_S_ := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3) = A :=
    (Pipeline.withArrays_arr spec0 launch0.win.arr_inj c _ _ 2).trans hA
  rw [hw]
  rfl

/-- Every execution ends with the scalar result at the mean loss of the arguments, and the arguments as they were. -/
theorem run : θ_run defs (onTc (τ := τ) (main (F := Ideal))) ⟨m, fun _ => 0, ρ⟩ fun r => ∀ c : Dev nD,
      r.2.mem ((c.tc : Thread nD τ).loc main_v4) = (fun _ => mean (X m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans
        ((tail_eq m c (outArr m c) (final_out m c)).trans (funext fun _ => rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The plain program computes the mean loss.

  Read one operation at a time at an index `j = (row, threshold)`, its last elementwise stage is the negated sum of
  the two weighted logarithms — the plain spelling of the loss cell of `logits j` against the indicator
  `threshold < targets row - 1`, the threshold coming from an iota spread over the rows and the rank from the targets
  minus one spread over the thresholds. The program then adds all of them to the zero word and divides by the cell
  count: the mean.
-/
import proofs.«111805_j17626545783550_2_alg».proof.Proof.Gen.ReferenceIdeal.Read
import proofs.«111805_j17626545783550_2_alg».proof.Proof.Mean
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Corn

/-- The rank of a row: its target minus the constant one. -/
theorem rank_apply (x1 : (⟨S4194304, .i32⟩ : BufTy).Contents (Elt Ideal)) (i : S4194304.Idx) :
    val_main_v1 (F := Ideal) x1 i = IntOp.subi (x1 i) 1#32 := by
  rw [val_main_v1_apply, val_main_v0_apply, val_main_c_apply]

/-- The last elementwise stage at `j` is the loss cell of `j`. -/
theorem loss_apply (x0 : (⟨S4194304x9, .f32⟩ : BufTy).Contents (Elt Ideal)) (x1 : (⟨S4194304, .i32⟩ : BufTy).Contents (Elt Ideal))
    (j : S4194304x9.Idx) :
    val_main_v28 (F := Ideal) x0 x1 j
      = cell (x0 j) (IntOp.cmpi .slt (BitVec.ofNat 32 (j 1).val) (IntOp.subi (x1 (ix1 (j 0))) 1#32)) := by
  have e : idx_main_v4 (idx_main_v6 j) = ix1 (j 0) := funext fun a => Fin.ext (by match a with | ⟨0, _⟩ => rfl)
  simp only [val_main_v28_apply, val_main_v27_apply, val_main_v26_apply, val_main_v25_apply, val_main_v24_apply,
    val_main_v23_apply, val_main_cst_4_apply, val_main_v22_apply, val_main_v21_apply, val_main_cst_3_apply,
    val_main_v20_apply, val_main_v19_apply, val_main_cst_2_apply, val_main_v18_apply, val_main_v17_apply,
    val_main_v16_apply, val_main_v15_apply, val_main_cst_1_apply, val_main_v14_apply, val_main_v13_apply,
    val_main_cst_0_apply, val_main_v12_apply, val_main_v11_apply, val_main_cst_apply, val_main_v10_apply,
    val_main_v9_apply, val_main_v8_apply, val_main_v7_apply, val_main_v6_apply, val_main_v5_apply, val_main_v4_apply,
    val_main_v3_apply, val_main_v2_apply, e, rank_apply]
  exact cell_of_quotient _ _

/-- The program's result, at its one index, is the mean loss of its two arguments. -/
theorem result_eq (x0 : (⟨S4194304x9, .f32⟩ : BufTy).Contents (Elt Ideal)) (x1 : (⟨S4194304, .i32⟩ : BufTy).Contents (Elt Ideal)) :
    val_main_v30 (F := Ideal) x0 x1 = fun _ => mean x0 x1 := by
  funext i
  rw [val_main_v30_apply, val_main_v29_apply, val_main_cst_5_apply, val_main_cst_6_apply]
  show Ideal.div (Ideal.ofBits .f32 0x00000000#32 + ∑ j : S4194304x9.Idx, val_main_v28 (F := Ideal) x0 x1 j)
      (Ideal.ofBits .f32 0x4C100000#32) = _
  rw [Ideal.ofBits_zero_f32, zero_add]
  unfold mean total
  exact congrArg (fun s => Ideal.div s (Ideal.ofBits .f32 0x4C100000#32))
    (Finset.sum_congr rfl fun j _ => loss_apply x0 x1 j)

end Cert.ReferenceIdeal.RefValue

end
-- ==== Proof.lean ====
/-
  The mean of the ordinal binary-cross-entropy loss, computed two ways, is one number.

  Both programs take logits `X` (4194304 rows, 9 class thresholds) and 1-based integer targets `T`, and return

      (1 / 37748736) · ∑ over rows i and thresholds k of
          -( b · log(σ(X i k) + ε) + (1 - b) · log(1 - σ(X i k) + ε) ),     b = [k < T i - 1],  σ(x) = 1/(1 + e^(-x)).

  The accumulating program walks 512 tiles of 8192 rows, adds each tile's cells (nine per row, then the rows) to a
  carried one-entry accumulator that starts at zero, and divides at the last tile; the plain program adds all cells at
  once and divides. On the extended reals addition is commutative and associative without exception, so the
  tile-by-tile total IS the one-shot total; the two spellings of a cell agree everywhere (the logistic function is by
  definition the quotient the plain program writes out, a one-bit indicator is 0 or 1 whether it is read unsigned or
  sign-extended, and `0 - y` is `-y`); both divide by the same word. Hence the results are equal for ALL inputs: the
  finiteness precondition is not used by the value argument.

  The pieces: `Cell` (the cell and its two spellings), `Mean` (the total, row losses, tiles), `TileSum` (what one
  point adds), `Pieces` (what each case of the body leaves), `Blocks` (the windows' blocks as rows of the arguments),
  `Accumulate` (induction over the points), `Result` (the write-back and the final reshape), `RefValue` (the plain
  program). The three frame statements are the generated frame runs; the idealization rewrote nothing.
-/
import proofs.«111805_j17626545783550_2_alg».proof.Defs
import proofs.«111805_j17626545783550_2_alg».proof.Proof.Gen.Kernel
import proofs.«111805_j17626545783550_2_alg».proof.Proof.Gen.Kernel.Skeleton
import proofs.«111805_j17626545783550_2_alg».proof.Proof.Gen.Kernel.Launch
import proofs.«111805_j17626545783550_2_alg».proof.Proof.Gen.Kernel.Points
import proofs.«111805_j17626545783550_2_alg».proof.Proof.Gen.Kernel.Frame
import proofs.«111805_j17626545783550_2_alg».proof.Proof.Gen.KernelIdeal
import proofs.«111805_j17626545783550_2_alg».proof.Proof.Gen.KernelIdeal.Skeleton
import proofs.«111805_j17626545783550_2_alg».proof.Proof.Gen.KernelIdeal.Launch
import proofs.«111805_j17626545783550_2_alg».proof.Proof.Gen.KernelIdeal.Points
import proofs.«111805_j17626545783550_2_alg».proof.Proof.Gen.KernelIdeal.Frame
import proofs.«111805_j17626545783550_2_alg».proof.Proof.Gen.ReferenceIdeal
import proofs.«111805_j17626545783550_2_alg».proof.Proof.Gen.ReferenceIdeal.Run
import proofs.«111805_j17626545783550_2_alg».proof.Proof.Gen.ReferenceIdeal.Read
import proofs.«111805_j17626545783550_2_alg».proof.Proof.Gen.Pre_finite_inputs
import proofs.«111805_j17626545783550_2_alg».proof.Proof.Result
import proofs.«111805_j17626545783550_2_alg».proof.Proof.RefValue
import Idealize.ShloMosaic.Adequacy
import Idealize.ShloMosaic.Init

noncomputable section

namespace Cert.Proof

open Idealize.ShloMosaic Idealize.SL.Sem

/-- The word-level program runs to the end without a fault and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the plain program: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the program over the extended reals rewrote no operation. -/
theorem preserves : Cert.preserves_Kernel_KernelIdeal := trivial

/-- From memories that agree on the logits and the targets, both programs end with the mean loss of those arguments
    as their scalar result: the accumulating one by the induction over its 512 points, the plain one by reading its
    operations at an index. -/
theorem algebraic : Cert.algebraic_KernelIdeal_ReferenceIdeal := by
  intro m ρ m' ρ' _ hagree
  refine ⟨fun c => (fun _ => Cert.Corn.mean (Cert.KernelIdeal.Acc.X m c) (Cert.KernelIdeal.Acc.T m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
